-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S16384x256 : Shape := ⟨2, ![16384, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S4096x256 .f32) (main_arg1 : FVec F S16384x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  main_v8
-- ==== Kernel.lean ====
abbrev S4096x256 : Shape := ⟨2, ![4096, 256]⟩
abbrev S16384x256 : Shape := ⟨2, ![16384, 256]⟩
abbrev S_ : Shape := ⟨0, ![]⟩
abbrev S4096 : Shape := ⟨1, ![4096]⟩
abbrev S4096x1 : Shape := ⟨2, ![4096, 1]⟩
abbrev S16384 : Shape := ⟨1, ![16384]⟩
abbrev S1x16384 : Shape := ⟨2, ![1, 16384]⟩
abbrev S4096x16384 : Shape := ⟨2, ![4096, 16384]⟩
abbrev S512x256 : Shape := ⟨2, ![512, 256]⟩
abbrev S2048x256 : Shape := ⟨2, ![2048, 256]⟩
abbrev S512x1 : Shape := ⟨2, ![512, 1]⟩
abbrev S1x2048 : Shape := ⟨2, ![1, 2048]⟩
abbrev S512x2048 : Shape := ⟨2, ![512, 2048]⟩
abbrev S256x2048 : Shape := ⟨2, ![256, 2048]⟩

abbrev nBuf : Space → Nat
  | .hbm => 13
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S16384x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S16384x256, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S4096x256, .bf16⟩
  | .hbm, ⟨11, _⟩ => ⟨S16384x256, .bf16⟩
  | .hbm, ⟨12, _⟩ => ⟨S4096x16384, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  reducesTo_S16384x256_S16384_d1 : S16384x256.ReducesTo [1] S16384
  bcast_S16384_S1x16384_1 : S16384.BroadcastsInDim S1x16384 (![1] : Fin 1 → Fin S1x16384.rank)
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  transposes_S2048x256_p1_0_S256x2048 : S2048x256.Transposes [1, 0] S256x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .bf16 = 32 ∨ (Rect.block (s := S4096x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .bf16 = 32 ∨ (Rect.block (s := S16384x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x16384.size a
  hwx0_3 : ∀ i : grid0.Coords, EltTy.bits .f32 = 32 ∨ (Rect.block (s := S1x16384) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S4096x16384.size a
  hwx0_4 : ∀ i : grid0.Coords, EltTy.bits .f32 = 32 ∨ (Rect.block (s := S4096x16384) S512x2048.size (cc0_transform_4 i) (hinb0_4 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v6) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S16384x256 : Shape := ⟨2, ![16384, 256]⟩
abbrev S_ : Shape := ⟨0, ![]⟩
abbrev S4096 : Shape := ⟨1, ![4096]⟩
abbrev S16384 : Shape := ⟨1, ![16384]⟩
abbrev S4096x16384 : Shape := ⟨2, ![4096, 16384]⟩
abbrev S4096x1 : Shape := ⟨2, ![4096, 1]⟩
abbrev S1x16384 : Shape := ⟨2, ![1, 16384]⟩

abbrev nBuf : Space → Nat
  | .hbm => 22
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S16384x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S16384x256, .f32⟩
  | .hbm, ⟨6, _⟩ => ⟨S_, .f32⟩
  | .hbm, ⟨7, _⟩ => ⟨S16384, .f32⟩
  | .hbm, ⟨8, _⟩ => ⟨S4096x16384, .f32⟩
  | .hbm, ⟨9, _⟩ => ⟨S4096x1, .f32⟩
  | .hbm, ⟨10, _⟩ => ⟨S1x16384, .f32⟩
  | .hbm, ⟨11, _⟩ => ⟨S4096x16384, .f32⟩
  | .hbm, ⟨12, _⟩ => ⟨S4096x16384, .f32⟩
  | .hbm, ⟨13, _⟩ => ⟨S4096x16384, .f32⟩
  | .hbm, ⟨14, _⟩ => ⟨S_, .f32⟩
  | .hbm, ⟨15, _⟩ => ⟨S4096x16384, .f32⟩
  | .hbm, ⟨16, _⟩ => ⟨S4096x16384, .f32⟩
  | .hbm, ⟨17, _⟩ => ⟨S4096x16384, .f32⟩
  | .hbm, ⟨18, _⟩ => ⟨S_, .f32⟩
  | .hbm, ⟨19, _⟩ => ⟨S4096x16384, .f32⟩
  | .hbm, ⟨20, _⟩ => ⟨S4096x16384, .f32⟩
  | .hbm, ⟨21, _⟩ => ⟨S4096x16384, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  reducesTo_S16384x256_S16384_d1 : S16384x256.ReducesTo [1] S16384
  bcast_S4096_S4096x1_0 : S4096.BroadcastsInDim S4096x1 (![0] : Fin 1 → Fin S4096x1.rank)
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  dot_S4096x256_S16384x256_S4096x16384_1_1_0_0_n_n_wf : DotDims.WF S4096x256 S16384x256 S4096x16384 [1] [1] [0] [0] [] []

variable [Facts₀]

def dot_S4096x256_S16384x256_S4096x16384_1_1_0_0_n_n : DotDims S4096x256 S16384x256 S4096x16384 where
  lhsContracting := [1]
  rhsContracting := [1]
  lhsNonContracting := [0]
  rhsNonContracting := [0]
  lhsBatch := []
  rhsBatch := []
  wf := dot_S4096x256_S16384x256_S4096x16384_1_1_0_0_n_n_wf

class Facts : Prop extends Facts₀ where

variable [Facts]
-- ==== Proof.PairDist.lean ====
/-
  The matrix of Euclidean distances between the rows of `x` (4096 of them) and the rows of `y` (16384 of them), rows
  of length 256, over the extended reals. The squared distance is expanded,
      ‖x_r − y_c‖² = (‖x_r‖² + ‖y_c‖²) − 2·⟨x_r, y_c⟩ ,
  clamped below at zero, and the root taken:
      dist r c = √ max ((‖x_r‖² + ‖y_c‖²) − 2·⟨x_r, y_c⟩) 0 .
  A squared length is a sum that starts from the float zero, as a reduction with an initial value does. The constants
  `2` and `0` stay the float words that spell them (`0x40000000`, `0x00000000`): two sides that carry the same word
  are compared without ever evaluating it. Nothing here needs the entries to be finite: the expansion is taken as the
  definition, not derived from ‖x_r − y_c‖².
-/
import Idealize.ShloMosaic.PureOps.Ideal
import Idealize.ShloMosaic.Lib.ValueIdx

noncomputable section

namespace Cert.PairDist

open Idealize.ShloMosaic Idealize.ShloMosaic.ValueIdx

/-- The squared length of row `r` of an array whose rows have length 256: the float zero plus the sum of the squares of
    the row's entries. -/
def rowSq {n : ℕ} (x : (⟨2, ![n, 256]⟩ : Shape).Idx → EReal) (r : Fin n) : EReal :=
  Ideal.ofBits .f32 0x00000000#32 + ∑ k : Fin 256, x (ix2 r k) * x (ix2 r k)

/-- The inner product of row `r` of `x` and row `c` of `y`. -/
def rowDot (x : (⟨2, ![4096, 256]⟩ : Shape).Idx → EReal) (y : (⟨2, ![16384, 256]⟩ : Shape).Idx → EReal)
    (r : Fin 4096) (c : Fin 16384) : EReal :=
  ∑ k : Fin 256, x (ix2 r k) * y (ix2 c k)

/-- The distance from row `r` of `x` to row `c` of `y`, by the expansion of the square. -/
def dist (x : (⟨2, ![4096, 256]⟩ : Shape).Idx → EReal) (y : (⟨2, ![16384, 256]⟩ : Shape).Idx → EReal)
    (r : Fin 4096) (c : Fin 16384) : EReal :=
  Ideal.sqrt (max (rowSq x r + rowSq y c - Ideal.ofBits .f32 0x40000000#32 * rowDot x y r c) (Ideal.ofBits .f32 0x00000000#32))

/-- The whole matrix, index by index: entry `(r, c)` is the distance from row `r` of `x` to row `c` of `y`. -/
def matrix (x : (⟨2, ![4096, 256]⟩ : Shape).Idx → EReal) (y : (⟨2, ![16384, 256]⟩ : Shape).Idx → EReal) :
    (⟨2, ![4096, 16384]⟩ : Shape).Idx → EReal :=
  fun i => dist x y (i 0) (i 1)

theorem matrix_apply (x : (⟨2, ![4096, 256]⟩ : Shape).Idx → EReal) (y : (⟨2, ![16384, 256]⟩ : Shape).Idx → EReal)
    (r : Fin 4096) (c : Fin 16384) : matrix x y (ix2 r c) = dist x y r c := rfl

end Cert.PairDist

end
-- ==== Proof.RefDist.lean ====
/-
  The reference computes the distance matrix. Read one stage at a time at an index `(r, c)`: the two row-wise sums of
  squares (each the float zero plus a sum over the row) are broadcast along the other axis and added, twice the
  product `x·yᵀ` at `(r, c)` — the sum over `k` of `x (r, k) · y (c, k)` — is subtracted, the difference is clamped below
  at zero and the root taken. Every stage reads its operand at an index made of the coordinates `r`, `c` and `k` alone,
  so the composed index functions are the plain row indices `(r, k)` and `(c, k)`.
-/
import proofs.«142353_j27230092657008_2_alg».proof.Proof.Gen.ReferenceIdeal.Read
import proofs.«142353_j27230092657008_2_alg».proof.Proof.PairDist

noncomputable section

namespace Cert.ReferenceIdeal.RefValue

open Cert.ReferenceIdeal Cert.ReferenceIdeal.Gen Cert.ReferenceIdeal.Read
open Idealize.ShloMosaic Idealize.ShloMosaic.ValueIdx

/-- The row sum of `x`'s squares that entry `(r, c)` of the result reads is taken over row `r` of `x`. -/
theorem sqIdxX (r : Fin 4096) (c : Fin 16384) (k : Fin 256) :
    idx_main_v1 (idx_main_v5 (idx_main_v7 (ix2 r c))) k = ix2 r k :=
  funext fun a => Fin.ext (by match a with | ⟨0, _⟩ => rfl | ⟨1, _⟩ => rfl)

/-- The row sum of `y`'s squares that entry `(r, c)` reads is taken over row `c` of `y`. -/
theorem sqIdxY (r : Fin 4096) (c : Fin 16384) (k : Fin 256) :
    idx_main_v3 (idx_main_v6 (idx_main_v8 (ix2 r c))) k = ix2 c k :=
  funext fun a => Fin.ext (by match a with | ⟨0, _⟩ => rfl | ⟨1, _⟩ => rfl)

/-- The product's left factor at `(r, c)` and `k` is `x (r, k)`. -/
theorem dotIdxX (r : Fin 4096) (c : Fin 16384) (k : Fin 256) : lidx_main_v4 (ix2 r c) k = ix2 r k :=
  funext fun a => Fin.ext (by match a with | ⟨0, _⟩ => rfl | ⟨1, _⟩ => rfl)

/-- The product's right factor at `(r, c)` and `k` is `y (c, k)`: both operands are contracted along their rows. -/
theorem dotIdxY (r : Fin 4096) (c : Fin 16384) (k : Fin 256) : ridx_main_v4 (ix2 r c) k = ix2 c k :=
  funext fun a => Fin.ext (by match a with | ⟨0, _⟩ => rfl | ⟨1, _⟩ => rfl)

/-- The reference's last stage is the distance matrix of its two arguments. -/
theorem result_eq (x0 : (⟨S4096x256, .f32⟩ : BufTy).Contents (Elt Ideal)) (x1 : (⟨S16384x256, .f32⟩ : BufTy).Contents (Elt Ideal)) :
    val_main_v15 (F := Ideal) x0 x1 = Cert.PairDist.matrix x0 x1 := by
  funext i
  obtain ⟨r, c, rfl⟩ : ∃ (r : Fin 4096) (c : Fin 16384), i = ix2 r c := ⟨i 0, i 1, eq_ix2 i⟩
  rw [val_main_v15_apply, val_main_v14_apply, val_main_v12_apply, val_main_v9_apply, val_main_v11_apply,
    val_main_v7_apply, val_main_v5_apply, val_main_v1_apply, val_main_v8_apply, val_main_v6_apply, val_main_v3_apply,
    val_main_v4_apply, val_main_v10_apply, val_main_v13_apply]
  simp only [sqIdxX, sqIdxY, dotIdxX, dotIdxY]
  rfl

end Cert.ReferenceIdeal.RefValue

end
-- ==== Proof.LibBroadcastColumn.lean ====
/-
  A column broadcast along its rows, read at an index: an `[a, 1]` array broadcast to `[a, b]` holds, at `(p, c)`, the
  column's entry of row `p` — the companion of the row form `[1, b] → [a, b]`, which holds the row's entry of column `c`.
  This is how a per-row quantity kept with a trailing unit axis (a row sum, a row norm, a row maximum) meets a matrix.
-/
import Idealize.ShloMosaic.Lib.Pipeline.Value
import Idealize.ShloMosaic.Lib.ValueIdx

namespace Cert.Lib

open Idealize.ShloMosaic Idealize.ShloMosaic.ValueIdx

/-- An `[a, 1]` array broadcast to `[a, b]` reads, at `(p, c)`, the operand's one column at row `p`. On axis 0 the
    operand's coordinate is the result's (or `0` when `a = 1`, where `p` is `0` anyway); on axis 1 it is `0`, the axis
    having extent one. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Payload.lean ====
/-
  What the kernel's body stores, read at an index `(p, q)` of its `[512, 2048]` block, as a function of the four blocks it
  loads — `xb : [512, 256]` rows of `x`, `yb : [2048, 256]` rows of `y`, `x2 : [512, 1]` a column of squared lengths and
  `y2 : [1, 2048]` a row of squared lengths:
      √ max ((x2 (p, 0) + y2 (0, q)) − 2 · Σ_k xb (p, k) · yb (q, k)) 0 .
  The column is broadcast along its rows and the row along its columns; the product is `xb · ybᵀ` accumulated from zero,
  its contraction index running over the 256 entries of a row, and the transpose of `yb` read at `(k, q)` is `yb (q, k)`.
-/
import proofs.«142353_j27230092657008_2_alg».proof.Proof.Gen.KernelIdeal.Skeleton
import proofs.«142353_j27230092657008_2_alg».proof.Proof.LibBroadcastColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx

/-- The product's dimensions: `[512, 256] × [256, 2048] → [512, 2048]`, the left operand contracted along axis 1 and the
    right along axis 0. -/
abbrev dims : DotDims S512x256 S256x2048 S512x2048 := dot_S512x256_S256x2048_S512x2048_1_0_0_1_n_n

/-- The left operand's row is the result's row. -/
theorem lhs_row (i : S512x2048.Idx) (κ : dims.contr.Idx) : (dims.lhsIdx i κ 0).val = (i 0).val := by
  unfold DotDims.lhsIdx
  rw [dif_neg (show ¬(0 : Fin S512x256.rank) ∈ dims.lhsBatch by decide), dif_pos (show (0 : Fin S512x256.rank) ∈ dims.lhsNonContracting by decide)]
  rfl

/-- The left operand's column is the contraction index. -/
theorem lhs_col (i : S512x2048.Idx) (κ : dims.contr.Idx) : (dims.lhsIdx i κ 1).val = (κ ⟨0, by decide⟩).val :=
  dims.lhsIdx_val_of_single rfl i κ

/-- The right operand's row is the contraction index. -/
theorem rhs_row (i : S512x2048.Idx) (κ : dims.contr.Idx) : (dims.rhsIdx i κ 0).val = (κ ⟨0, by decide⟩).val :=
  dims.rhsIdx_val_of_single rfl i κ

/-- The right operand's column is the result's column. -/
theorem rhs_col (i : S512x2048.Idx) (κ : dims.contr.Idx) : (dims.rhsIdx i κ 1).val = (i 1).val := by
  unfold DotDims.rhsIdx
  rw [dif_neg (show ¬(1 : Fin S256x2048.rank) ∈ dims.rhsBatch by decide), dif_pos (show (1 : Fin S256x2048.rank) ∈ dims.rhsNonContracting by decide)]
  rfl

/-- A `[512, 256] × [256, 2048]` product accumulated from zero is, at `(p, q)`, the sum over `k` of `a (p, k) · b (k, q)`. -/
theorem product_apply (a : FVec Ideal S512x256 .bf16) (b : FVec Ideal S256x2048 .bf16) (p : Fin 512) (q : Fin 2048) :
    matmul dims none a b (constant (F := Ideal) S512x2048 .f32 0x00000000#32) (ix2 p q) = ∑ k : Fin 256, a (ix2 p k) * b (ix2 k q) := by
  refine (Ideal.matmul_constant_zero_apply dims none a b (ix2 p q)).trans ?_
  rw [← Equiv.sum_comp (contrEquiv1 dims 256 rfl rfl).symm]
  refine Finset.sum_congr rfl fun k _ => ?_
  have hk := contrEquiv1_symm_val dims 256 rfl rfl k
  have el : dims.lhsIdx (ix2 p q) ((contrEquiv1 dims 256 rfl rfl).symm k) = ix2 p k := funext fun ax => Fin.ext (by
    match ax with
    | ⟨0, _⟩ => exact lhs_row _ _
    | ⟨1, _⟩ => exact (lhs_col _ _).trans hk)
  have er : dims.rhsIdx (ix2 p q) ((contrEquiv1 dims 256 rfl rfl).symm k) = ix2 k q := funext fun ax => Fin.ext (by
    match ax with
    | ⟨0, _⟩ => exact (rhs_row _ _).trans hk
    | ⟨1, _⟩ => exact rhs_col _ _)
  rw [el, er]

/-- The column of squared lengths, broadcast along its rows, at `(p, q)`. -/
theorem column_apply (x2 : FVec Ideal S512x1 .f32) (p : Fin 512) (q : Fin 2048) :
    broadcastTo S512x2048 (shapeCast S512x1 x2 shapeCasts_S512x1_S512x1) broadcasts_S512x1_S512x2048 (ix2 p q) = x2 (ix2 p (0 : Fin 1)) := by
  rw [shapeCast_self]
  exact Cert.Lib.broadcastTo_a1_ab_apply x2 broadcasts_S512x1_S512x2048 p q

/-- The row of squared lengths, broadcast along its columns, at `(p, q)`. -/
theorem row_apply (y2 : FVec Ideal S1x2048 .f32) (p : Fin 512) (q : Fin 2048) :
    broadcastTo S512x2048 (shapeCast S1x2048 y2 shapeCasts_S1x2048_S1x2048) broadcasts_S1x2048_S512x2048 (ix2 p q) = y2 (ix2 (0 : Fin 1) q) := by
  rw [shapeCast_self]
  exact broadcastTo_1b_ab_apply y2 broadcasts_S1x2048_S512x2048 p q

/-- The product `xb · ybᵀ` at `(p, q)`: the sum over `k` of `xb (p, k) · yb (q, k)`. -/
theorem cross_apply (xb : FVec Ideal S512x256 .bf16) (yb : FVec Ideal S2048x256 .bf16) (p : Fin 512) (q : Fin 2048) :
    matmul dims none (shapeCast S512x256 xb shapeCasts_S512x256_S512x256)
        (transpose S256x2048 [1, 0] (shapeCast S2048x256 yb shapeCasts_S2048x256_S2048x256) transposes_S2048x256_p1_0_S256x2048)
        (constant (F := Ideal) S512x2048 .f32 0x00000000#32) (ix2 p q)
      = ∑ k : Fin 256, xb (ix2 p k) * yb (ix2 q k) := by
  rw [shapeCast_self, shapeCast_self]
  refine (product_apply xb _ p q).trans (Finset.sum_congr rfl fun k _ => ?_)
  rw [transpose_ix2_apply]

/-- THE PAYLOAD AT AN INDEX: what the body stores at `(p, q)` of its block. -/
theorem pay_apply (xb : FVec Ideal S512x256 .bf16) (yb : FVec Ideal S2048x256 .bf16) (x2 : FVec Ideal S512x1 .f32) (y2 : FVec Ideal S1x2048 .f32)
    (p : Fin 512) (q : Fin 2048) :
    k0_pay1 (F := Ideal) xb yb x2 y2 (ix2 p q)
      = Ideal.sqrt (max (x2 (ix2 p (0 : Fin 1)) + y2 (ix2 (0 : Fin 1) q)
          - Ideal.ofBits .f32 0x40000000#32 * ∑ k : Fin 256, xb (ix2 p k) * yb (ix2 q k)) (Ideal.ofBits .f32 0x00000000#32)) := by
  unfold k0_pay1
  show Ideal.sqrt (max (_ + _ - Ideal.ofBits .f32 0x40000000#32 * _) (Ideal.ofBits .f32 0x00000000#32)) = _
  rw [column_apply, row_apply, cross_apply]

end Cert.KernelIdeal.Payload

end
-- ==== Proof.Operands.lean ====
/-
  The four arrays the kernel's region is launched on, as the region finds them, in terms of the two arguments.
  Before the region the program computes, on the host, exactly the first stages of the reference: `x` and `y` narrowed
  to bf16 — over the extended reals a change of format changes nothing, so these ARE `x` and `y` — and the two row-wise
  sums of squares, kept as a column `[4096, 1]` for `x` and as a row `[1, 16384]` for `y`. Read at an index, the column's
  entry of row `r` is the squared length of row `r` of `x`, and the row's entry of column `c` that of row `c` of `y`.
-/
import proofs.«142353_j27230092657008_2_alg».proof.Proof.Gen.KernelIdeal.Frame
import proofs.«142353_j27230092657008_2_alg».proof.Proof.Gen.ReferenceIdeal.Read
import proofs.«142353_j27230092657008_2_alg».proof.Proof.PairDist
import Idealize.ShloMosaic.Lib.StableHlo.Run

noncomputable section

namespace Cert.KernelIdeal.Operands

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The first operand, `x` narrowed to bf16, is `x`. -/
theorem V_xb (c : Dev nD) : (V m c main_v6 : S4096x256.Idx → EReal) = m ((c : Thread nD τ).loc main_arg0) := by
  dsimp only [Gen.V, Gen.hostOps0]; after_results; rfl

/-- The second operand, `y` narrowed to bf16, is `y`. -/
theorem V_yb (c : Dev nD) : (V m c main_v7 : S16384x256.Idx → EReal) = m ((c : Thread nD τ).loc main_arg1) := by
  dsimp only [Gen.V, Gen.hostOps0]; after_results; rfl

/-- The third operand is the reference's column of row sums of `x`'s squares: the same host operations of the same argument. -/
theorem V_x2 (c : Dev nD) : (V m c main_v2 : S4096x1.Idx → EReal)
    = Cert.ReferenceIdeal.Read.val_main_v5 (F := Ideal) (m ((c : Thread nD τ).loc main_arg0)) := by
  dsimp only [Gen.V, Gen.hostOps0]; after_results; rfl

/-- The fourth operand is the reference's row of row sums of `y`'s squares. -/
theorem V_y2 (c : Dev nD) : (V m c main_v5 : S1x16384.Idx → EReal)
    = Cert.ReferenceIdeal.Read.val_main_v6 (F := Ideal) (m ((c : Thread nD τ).loc main_arg1)) := by
  dsimp only [Gen.V, Gen.hostOps0]; after_results; rfl

/-- The column's entry of row `r` sums over row `r` of `x`. -/
theorem colIdx (r : Fin 4096) (k : Fin 256) :
    Cert.ReferenceIdeal.Read.idx_main_v1 (Cert.ReferenceIdeal.Read.idx_main_v5 (ix2 r (0 : Fin 1))) k = ix2 r k :=
  funext fun a => Fin.ext (by match a with | ⟨0, _⟩ => rfl | ⟨1, _⟩ => rfl)

/-- The row's entry of column `c` sums over row `c` of `y`. -/
theorem rowIdx (c : Fin 16384) (k : Fin 256) :
    Cert.ReferenceIdeal.Read.idx_main_v3 (Cert.ReferenceIdeal.Read.idx_main_v6 (ix2 (0 : Fin 1) c)) k = ix2 c k :=
  funext fun a => Fin.ext (by match a with | ⟨0, _⟩ => rfl | ⟨1, _⟩ => rfl)

/-- The third operand at row `r`: the squared length of row `r` of `x`. -/
theorem x2_apply (c : Dev nD) (r : Fin 4096) :
    V m c main_v2 (ix2 r (0 : Fin 1)) = Cert.PairDist.rowSq (m ((c : Thread nD τ).loc main_arg0)) r := by
  refine (congrFun (V_x2 m c) (ix2 r (0 : Fin 1))).trans ?_
  rw [Cert.ReferenceIdeal.Read.val_main_v5_apply, Cert.ReferenceIdeal.Read.val_main_v1_apply]
  simp only [colIdx]
  rfl

/-- The fourth operand at column `q`: the squared length of row `q` of `y`. -/
theorem y2_apply (c : Dev nD) (q : Fin 16384) :
    V m c main_v5 (ix2 (0 : Fin 1) q) = Cert.PairDist.rowSq (m ((c : Thread nD τ).loc main_arg1)) q := by
  refine (congrFun (V_y2 m c) (ix2 (0 : Fin 1) q)).trans ?_
  rw [Cert.ReferenceIdeal.Read.val_main_v6_apply, Cert.ReferenceIdeal.Read.val_main_v3_apply]
  simp only [rowIdx]
  rfl

end Cert.KernelIdeal.Operands

end
-- ==== Proof.Blocks.lean ====
/-
  From blocks to the whole matrix. The grid has 8 × 8 points; point `t` works on block `(I, J)` of the `[4096, 16384]`
  result, `I` its block row (512 rows) and `J` its block column (2048 columns). At that point the body is handed rows
  `512·I …` of `x` and of the column of squared lengths, and rows `2048·J …` of `y` and (as columns) of the row of squared
  lengths. So entry `(p, q)` of what it stores is the distance from row `512·I + p` of `x` to row `2048·J + q` of `y`:
  the block it writes back is the block of ONE matrix, the distance matrix. The 64 blocks tile the result — entry
  `(r, c)` lies in the block `(r / 512, c / 2048)` — so after the run the result IS that matrix.
-/
import proofs.«142353_j27230092657008_2_alg».proof.Proof.Gen.KernelIdeal.Value
import proofs.«142353_j27230092657008_2_alg».proof.Proof.Payload
import proofs.«142353_j27230092657008_2_alg».proof.Proof.Operands
import proofs.«142353_j27230092657008_2_alg».proof.Proof.PairDist

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- How the five windows move over the grid, decided over its 64 points: the `x` block and the column of squared lengths
    follow the result's block row, the `y` block and the row of squared lengths its block column, each whole along its
    other axis; and both block coordinates of the result stay below 8. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every block of the result is some point's. -/
theorem idx_onto : ∀ (I : Fin 8) (J : Fin 8), ∃ t : Fin cfg0.N, win0_4.index t = ![I.val, J.val] :=
  (by decide +kernel : ∀ (I : Fin 8) (J : Fin 8), ∃ t : Fin grid0.N, win0_4.index t = ![I.val, J.val])

/-- The row of the matrix that row `p` of point `t`'s block is. -/
def row (t : Fin cfg0.N) (p : Fin 512) : Fin 4096 :=
  ⟨win0_4.index t (0 : Fin 2) * 512 + p.val, by
    have h := (idx_facts t).2.2.2.2.2.2.2.2.1
    have hp := p.isLt
    omega⟩

/-- The column of the matrix that column `q` of point `t`'s block is. -/
def col (t : Fin cfg0.N) (q : Fin 2048) : Fin 16384 :=
  ⟨win0_4.index t (1 : Fin 2) * 2048 + q.val, by
    have h := (idx_facts t).2.2.2.2.2.2.2.2.2
    have hq := q.isLt
    omega⟩

/-- The `x` block at point `t` holds rows `row t ·` of `x`. -/
theorem xb_apply (c : Dev nD) (t : Fin cfg0.N) (p : Fin 512) (k : Fin 256) :
    iblk m c 0 t (ix2 p k) = m ((c : Thread nD τ).loc main_arg0) (ix2 (row t p) k) := by
  show V m c main_v6 (((cfg0.win 0).blk t).view.emb (ix2 p k)) = _
  refine (congrFun (Operands.V_xb m c) _).trans (congrArg _ (funext fun a => Fin.ext ?_))
  obtain ⟨e0, e1, -⟩ := idx_facts t
  match a with
  | ⟨0, _⟩ => show win0_0.index t (0 : Fin 2) * 512 + 1 * p.val = win0_4.index t (0 : Fin 2) * 512 + p.val; omega
  | ⟨1, _⟩ => show win0_0.index t (1 : Fin 2) * 256 + 1 * k.val = k.val; omega

/-- The `y` block at point `t` holds rows `col t ·` of `y`. -/
theorem yb_apply (c : Dev nD) (t : Fin cfg0.N) (q : Fin 2048) (k : Fin 256) :
    iblk m c 1 t (ix2 q k) = m ((c : Thread nD τ).loc main_arg1) (ix2 (col t q) k) := by
  show V m c main_v7 (((cfg0.win 1).blk t).view.emb (ix2 q k)) = _
  refine (congrFun (Operands.V_yb m c) _).trans (congrArg _ (funext fun a => Fin.ext ?_))
  obtain ⟨-, -, e2, e3, -⟩ := idx_facts t
  match a with
  | ⟨0, _⟩ => show win0_1.index t (0 : Fin 2) * 2048 + 1 * q.val = win0_4.index t (1 : Fin 2) * 2048 + q.val; omega
  | ⟨1, _⟩ => show win0_1.index t (1 : Fin 2) * 256 + 1 * k.val = k.val; omega

/-- The block of the column of squared lengths at point `t` holds those of rows `row t ·` of `x`. -/
theorem x2_apply (c : Dev nD) (t : Fin cfg0.N) (p : Fin 512) :
    iblk m c 2 t (ix2 p (0 : Fin 1)) = Cert.PairDist.rowSq (m ((c : Thread nD τ).loc main_arg0)) (row t p) := by
  show V m c main_v2 (((cfg0.win 2).blk t).view.emb (ix2 p (0 : Fin 1))) = _
  refine Eq.trans (congrArg _ (funext fun a => Fin.ext ?_)) (Operands.x2_apply m c (row t p))
  obtain ⟨-, -, -, -, e4, e5, -⟩ := idx_facts t
  match a with
  | ⟨0, _⟩ => show win0_2.index t (0 : Fin 2) * 512 + 1 * p.val = win0_4.index t (0 : Fin 2) * 512 + p.val; omega
  | ⟨1, _⟩ => show win0_2.index t (1 : Fin 2) * 1 + 1 * 0 = 0; omega

/-- The block of the row of squared lengths at point `t` holds those of rows `col t ·` of `y`. -/
theorem y2_apply (c : Dev nD) (t : Fin cfg0.N) (q : Fin 2048) :
    iblk m c 3 t (ix2 (0 : Fin 1) q) = Cert.PairDist.rowSq (m ((c : Thread nD τ).loc main_arg1)) (col t q) := by
  show V m c main_v5 (((cfg0.win 3).blk t).view.emb (ix2 (0 : Fin 1) q)) = _
  refine Eq.trans (congrArg _ (funext fun a => Fin.ext ?_)) (Operands.y2_apply m c (col t q))
  obtain ⟨-, -, -, -, -, -, e6, e7, -⟩ := idx_facts t
  match a with
  | ⟨0, _⟩ => show win0_3.index t (0 : Fin 2) * 1 + 1 * 0 = 0; omega
  | ⟨1, _⟩ => show win0_3.index t (1 : Fin 2) * 2048 + 1 * q.val = win0_4.index t (1 : Fin 2) * 2048 + q.val; omega

/-- Entry `(p, q)` of point `t`'s block of the result sits at `(row t p, col t q)` of the matrix. -/
theorem out_emb (t : Fin cfg0.N) (p : Fin 512) (q : Fin 2048) :
    ((cfg0.win 4).blk t).view.emb (ix2 p q) = ix2 (row t p) (col t q) := by
  funext a; apply Fin.ext
  match a with
  | ⟨0, _⟩ => show win0_4.index t (0 : Fin 2) * 512 + 1 * p.val = win0_4.index t (0 : Fin 2) * 512 + p.val; omega
  | ⟨1, _⟩ => show win0_4.index t (1 : Fin 2) * 2048 + 1 * q.val = win0_4.index t (1 : Fin 2) * 2048 + q.val; omega

/-- WHAT POINT `t` WRITES BACK is block `t` of the distance matrix of the two arguments. -/
theorem flushed_eq (c : Dev nD) (t : Fin cfg0.N) :
    (dats m 0 c).flushed 4 t = ((cfg0.win 4).blk t).view.read (Elt Ideal)
      (Cert.PairDist.matrix (m ((c : Thread nD τ).loc main_arg0)) (m ((c : Thread nD τ).loc main_arg1))) := by
  show (cfg0.win 4).cut (grid0.coords t) ((dats m 0 c).after 4 t) = _
  rw [after0_4]
  unfold out0_4
  rw [View.canon_unit_zero zeros]
  simp only [View.ld_unit_zero (S := S512x256) zeros, View.ld_unit_zero (S := S2048x256) zeros,
    View.ld_unit_zero (S := S512x1) zeros, View.ld_unit_zero (S := S1x2048) zeros]
  funext j
  obtain ⟨p, q, rfl⟩ : ∃ (p : Fin 512) (q : Fin 2048), j = ix2 p q := ⟨j 0, j 1, eq_ix2 (n0 := 512) (n1 := 2048) j⟩
  refine (Payload.pay_apply (iblk m c 0 t) (iblk m c 1 t) (iblk m c 2 t) (iblk m c 3 t) p q).trans ?_
  rw [x2_apply m c t p, y2_apply m c t q]
  simp only [xb_apply m c t, yb_apply m c t]
  show _ = Cert.PairDist.matrix _ _ (((cfg0.win 4).blk t).view.emb (ix2 p q))
  rw [out_emb t p q]
  rfl

/-- An index of the result is in point `t`'s block iff each coordinate is in the block's range on its axis. -/
theorem mem_blk (t : Fin cfg0.N) (i : S4096x16384.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v8).slice (win0_4.rect t)).set ↔ _
  rw [View.set_slice_whole, Rect.mem_set_unit]
  exact Iff.rfl

/-- The blocks tile the result: entry `(r, c)` lies in the block of the point at `(r / 512, c / 2048)`. -/
theorem cover (i : S4096x16384.Idx) : ∃ t : Fin cfg0.N, (cfg0.win 4).flush t = true ∧ i ∈ ((cfg0.win 4).blk t).view.set := by
  have hi0 : (i 0).val < 4096 := (i 0).isLt
  have hi1 : (i 1).val < 16384 := (i 1).isLt
  obtain ⟨t, ht⟩ := idx_onto ⟨(i 0).val / 512, by omega⟩ ⟨(i 1).val / 2048, by omega⟩
  have q0 : win0_4.index t (0 : Fin 2) = (i 0).val / 512 := congrFun ht 0
  have q1 : win0_4.index t (1 : Fin 2) = (i 1).val / 2048 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- THE RESULT after the run is the distance matrix of the two arguments. -/
theorem final (c : Dev nD) : (dats m 0 c).arrAt 4 cfg0.N
    = Cert.PairDist.matrix (m ((c : Thread nD τ).loc main_arg0)) (m ((c : Thread nD τ).loc main_arg1)) :=
  (dats m 0 c).arrAt_eq_of_cover 4 _ (fun t _ => flushed_eq m c t) cover

/-- The kernel's run: every weakly fair execution terminates with the result at the distance matrix of the arguments
    and the arguments unchanged. -/
theorem run : θ_run defs (onTc (τ := τ) (main (F := Ideal))) ⟨m, fun _ => 0, ρ⟩ fun r => ∀ c : Dev nD,
      r.2.mem ((c : Thread nD τ).loc main_v8)
        = Cert.PairDist.matrix (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.lean ====
/-
  The kernel computes the matrix of Euclidean distances between the 4096 rows of `x` and the 16384 rows of `y` (rows of
  length 256) by the expansion  ‖x_r − y_c‖² = (‖x_r‖² + ‖y_c‖²) − 2·⟨x_r, y_c⟩,  clamped below at zero before the
  root; the reference computes the same expression whole. Over the extended reals, with every operation exact and a
  change of float format the identity, the two agree entry by entry WITHOUT any algebra: both take the two squared
  lengths as the float zero plus a sum over the row, add them in the same order, subtract twice the inner product —
  a sum over the 256 entries of a row on both sides, the kernel's a matrix product with the transposed block
  accumulated from zero — with the same words for `2` and `0`, and take the same root. So no law of the extended reals
  that could fail at an infinity is used, and the inputs' finiteness is never opened.

  What differs is only the arrangement: the kernel works on an 8 × 8 grid of `[512, 2048]` blocks of the result.
  Proof/PairDist.lean states the matrix index by index; Proof/RefDist.lean reads the reference's stages at an index and
  finds it; Proof/Payload.lean reads what the kernel's body stores at an index of its block; Proof/Operands.lean reads
  the four arrays the region is launched on; Proof/Blocks.lean shows that each grid point writes back a block of that
  one matrix and that the blocks tile it. Here the three frames, the (empty) list of idealization rewrites and the
  equality of the two results are put together.
-/
import proofs.«142353_j27230092657008_2_alg».proof.Defs
import proofs.«142353_j27230092657008_2_alg».proof.Proof.Gen.Kernel
import proofs.«142353_j27230092657008_2_alg».proof.Proof.Gen.Kernel.Skeleton
import proofs.«142353_j27230092657008_2_alg».proof.Proof.Gen.Kernel.Launch
import proofs.«142353_j27230092657008_2_alg».proof.Proof.Gen.Kernel.Points
import proofs.«142353_j27230092657008_2_alg».proof.Proof.Gen.Kernel.Frame
import proofs.«142353_j27230092657008_2_alg».proof.Proof.Gen.KernelIdeal
import proofs.«142353_j27230092657008_2_alg».proof.Proof.Gen.KernelIdeal.Skeleton
import proofs.«142353_j27230092657008_2_alg».proof.Proof.Gen.KernelIdeal.Launch
import proofs.«142353_j27230092657008_2_alg».proof.Proof.Gen.KernelIdeal.Points
import proofs.«142353_j27230092657008_2_alg».proof.Proof.Gen.KernelIdeal.Frame
import proofs.«142353_j27230092657008_2_alg».proof.Proof.Gen.ReferenceIdeal
import proofs.«142353_j27230092657008_2_alg».proof.Proof.Gen.KernelIdeal.Value
import proofs.«142353_j27230092657008_2_alg».proof.Proof.Gen.ReferenceIdeal.Run
import proofs.«142353_j27230092657008_2_alg».proof.Proof.Gen.ReferenceIdeal.Read
import proofs.«142353_j27230092657008_2_alg».proof.Proof.Gen.Pre_finite_inputs
import proofs.«142353_j27230092657008_2_alg».proof.Proof.PairDist
import proofs.«142353_j27230092657008_2_alg».proof.Proof.RefDist
import proofs.«142353_j27230092657008_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten to read it over the extended reals: there is nothing to preserve. -/
theorem preserves : Cert.preserves_Kernel_KernelIdeal := trivial

/-- From memories that agree on `x` and `y`, the kernel's result and the reference's are both the distance matrix of
    `x` and `y`: the kernel's by its blocks, the reference's by reading its last stage at an index. -/
theorem algebraic : Cert.algebraic_KernelIdeal_ReferenceIdeal := by
  intro m ρ m' ρ' _ hagree
  refine ⟨fun c => Cert.PairDist.matrix (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
